-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel

variable [Facts]

def fn {F : FTy → Type} [FloatOps F] (main_arg0 : FVec F S4x2048x4096 .f32) (main_arg1 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  main_v3
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S8192x4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .hbm, ⟨6, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x2048x4096_S8192x4096 : S4x2048x4096.ShapeCasts S8192x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .f32⟩
  | .hbm, ⟨3, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.RowsProduct.lean ====
/-
  The one function both programs compute. With `x` an array of shape [4, 2048, 4096] of extended reals and `w` an
  array of shape [4096, 4096] of 32-bit integers,

      out[b, s, o] = Σ_{k < 4096} x[b, s, k] · w[o, k]        (w[o, k] read as a signed integer, exactly)

  — every one of the 4·2048 activation rows against every one of the 4096 weight rows, each pair contracted along the
  shared last axis. `flat` is the same table with the two leading axes of `x` laid out as one axis of 8192 rows, over
  operands that are already extended reals: entry (r, o) is the sum over `k` of X[r, k] · W[o, k].
  Only the terms are stated here; nothing in this file is about a program.
-/
import Idealize.ShloMosaic.PureOps.Ideal
import Idealize.ShloMosaic.Lib.ValueIdx

noncomputable section

open scoped BigOperators

namespace Cert.RowsProduct

open Idealize.ShloMosaic Idealize.ShloMosaic.ValueIdx

/-- Rows against rows: entry (r, o) of the [8192, 4096] table is Σ_k X[r, k] · W[o, k]. -/
def flat (X : (⟨2, ![8192, 4096]⟩ : Shape).Idx → EReal) (W : (⟨2, ![4096, 4096]⟩ : Shape).Idx → EReal) :
    (⟨2, ![8192, 4096]⟩ : Shape).Idx → EReal :=
  fun i => ∑ k : Fin 4096, X (ix2 (i 0 : Fin 8192) k) * W (ix2 (i 1 : Fin 4096) k)

/-- The result array: out[b, s, o] = Σ_k x[b, s, k] · (w[o, k] as a signed integer). -/
def out (x : (⟨3, ![4, 2048, 4096]⟩ : Shape).Idx → EReal) (w : (⟨2, ![4096, 4096]⟩ : Shape).Idx → BitVec 32) :
    (⟨3, ![4, 2048, 4096]⟩ : Shape).Idx → EReal :=
  fun i => ∑ k : Fin 4096, x (ix3 (i 0 : Fin 4) (i 1 : Fin 2048) k) * (((w (ix2 (i 2 : Fin 4096) k)).toInt : ℝ) : EReal)

end Cert.RowsProduct

end
-- ==== Proof.BlockProduct.lean ====
/-
  One block of the product. At a grid point the kernel body holds a block of 1024 activation rows and a block of 512
  weight rows, each row 4096 long, and stores the matrix product that contracts the LAST axis of both into a zero
  accumulator. Over the extended reals that product, at entry (p, q) of the [1024, 512] block, is

      Σ_{k < 4096} rows[p, k] · weights[q, k]

  — the contraction index has one axis, which we identify with `Fin 4096`; the left operand is read at (p, k) and
  the right operand at (q, k). The two identity shape casts in front of the product drop out.
-/
import proofs.«179095_j43963285242662_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's row coordinate is the output's row coordinate. -/
theorem lhs_row (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

/-- The left operand's column coordinate is the contraction position. -/
theorem lhs_col (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q

/-- The right operand's row coordinate is the output's column coordinate. -/
theorem rhs_row (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- The right operand's column coordinate is the contraction position. -/
theorem rhs_col (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-- What the body stores, at entry (p, q) of the block: the sum over the shared axis of the products of row `p` of
    the activation block and row `q` of the weight block. -/
theorem stored_apply (x0 : Vec Ideal S1024x4096 .bf16) (x1 : Vec Ideal S512x4096 .bf16) (p : Fin 1024) (q : Fin 512) :
    k0_pay1 (F := Ideal) x0 x1 (ix2 p q) = ∑ k : Fin 4096, x0 (ix2 p k) * x1 (ix2 q k) := by
  unfold k0_pay1
  rw [shapeCast_self, shapeCast_self]
  simp only [matmul]
  rw [Ideal.matmul_constant_zero_apply,
    ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q)
      ((contrEquiv1 dot_S1024x4096_S512x4096_S1024x512_1_1_0_0_n_n 4096 rfl rfl).symm k) = ix2 p k :=
    funext fun a => Fin.ext (by
      match a with
      | ⟨0, _⟩ => exact lhs_row _ _
      | ⟨1, _⟩ => exact (lhs_col _ _).trans hk)
  have er : dot_S1024x4096_S512x4096_S1024x512_1_1_0_0_n_n.rhsIdx (ix2 p q)
      ((contrEquiv1 dot_S1024x4096_S512x4096_S1024x512_1_1_0_0_n_n 4096 rfl rfl).symm k) = ix2 q k :=
    funext fun a => Fin.ext (by
      match a with
      | ⟨0, _⟩ => exact rhs_row _ _
      | ⟨1, _⟩ => exact (rhs_col _ _).trans hk)
  rw [el, er]

end Cert.KernelIdeal.BlockProduct

end
-- ==== Proof.RegionArray.lean ====
/-
  The array the region leaves. The grid has 8 × 8 points; at point (i, j) the kernel is handed rows
  1024·i … 1024·i + 1023 of the [8192, 4096] matrix of activation rows (all 4096 columns), rows 512·j … 512·j + 511 of
  the [4096, 4096] matrix of weight rows (all columns), and writes back the [1024, 512] block at block position (i, j) of
  the [8192, 4096] output. Entry (p, q) of that block is Σ_k rows[1024·i + p, k] · weights[512·j + q, k]
  (`BlockProduct.stored_apply`), which is entry (1024·i + p, 512·j + q) of the whole table `RowsProduct.flat` of the two
  matrices as the region finds them. The 64 blocks tile the output, so after the region the output array IS that table.
-/
import proofs.«179095_j43963285242662_2_alg».proof.Proof.Gen.KernelIdeal.Frame
import proofs.«179095_j43963285242662_2_alg».proof.Proof.BlockProduct
import proofs.«179095_j43963285242662_2_alg».proof.Proof.RowsProduct
import Idealize.ShloMosaic.Lib.Pipeline.Value
import Idealize.ShloMosaic.Lib.ValueIdx

set_option maxRecDepth 16384

noncomputable section

open scoped BigOperators

namespace Cert.KernelIdeal.RegionArray

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Where the three windows sit at a grid point: the activation block's row position is the output block's, the weight
    block's row position is the output block's column position, both operand blocks span all columns, and the output's
    block positions stay below 8. -/
theorem block_positions : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 7 :=
  (by decide +kernel : ∀ t : Fin grid0.N, _)

/-- Every block position of the 8 × 8 output tiling is some grid point's. -/
theorem every_block : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What a grid point writes back is its block of the whole table. -/
theorem flushed_eq (c : Dev nD) (t : Fin cfg0.N) :
    (dats m 0 c).flushed 2 t
      = ((cfg0.win 2).blk t).view.read (Elt Ideal) (RowsProduct.flat (V m c main_v1) (V m c main_v2)) := by
  show (cfg0.win 2).cut (grid0.coords t) ((dats m 0 c).after 2 t) = _
  rw [after0_2]
  unfold out0_2
  rw [View.canon_unit_zero zero_offsets]
  simp only [View.ld_unit_zero (S := S1024x4096) zero_offsets, View.ld_unit_zero (S := S512x4096) zero_offsets]
  obtain ⟨e0, e1, e2, e3, -, -⟩ := block_positions t
  funext j
  obtain ⟨p, q, rfl⟩ : ∃ (p : Fin 1024) (q : Fin 512), j = ix2 p q := ⟨j 0, j 1, eq_ix2 j⟩
  show k0_pay1 (iblk m c 0 t) (iblk m c 1 t) (ix2 p q)
    = RowsProduct.flat (V m c main_v1) (V m c main_v2) (((cfg0.win 2).blk t).view.emb (ix2 p q))
  refine (BlockProduct.stored_apply (iblk m c 0 t) (iblk m c 1 t) p q).trans ?_
  unfold RowsProduct.flat
  refine Finset.sum_congr rfl fun k _ => ?_
  have h0 : ((cfg0.win 0).blk t).view.emb (ix2 p k)
      = ix2 ((((cfg0.win 2).blk t).view.emb (ix2 p q)) 0 : Fin 8192) k := by
    funext a; apply Fin.ext
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 4096 + 1 * k.val = k.val
      omega
  have h1 : ((cfg0.win 1).blk t).view.emb (ix2 q k)
      = ix2 ((((cfg0.win 2).blk t).view.emb (ix2 p q)) 1 : Fin 4096) k := by
    funext a; apply Fin.ext
    match a with
    | ⟨0, _⟩ =>
      show win0_1.index t (0 : Fin 2) * 512 + 1 * q.val = win0_2.index t (1 : Fin 2) * 512 + 1 * q.val
      omega
    | ⟨1, _⟩ =>
      show win0_1.index t (1 : Fin 2) * 4096 + 1 * k.val = k.val
      omega
  refine congrArg₂ (fun a b : EReal => a * b) ?_ ?_
  · exact congrArg (V m c main_v1 : S8192x4096.Idx → EReal) h0
  · exact congrArg (V m c main_v2 : S4096x4096.Idx → EReal) h1

/-- An index of the output lies in a grid point's block exactly when each coordinate lies in the block's range. -/
theorem mem_blk (t : Fin cfg0.N) (i : S8192x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v3).slice (win0_2.rect t)).set ↔ _
  rw [View.set_slice_whole, Rect.mem_set_unit]
  exact Iff.rfl

/-- The blocks tile the output: entry (r, o) is in the block at position (r / 1024, o / 512). -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_block ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- After the region the output array is the whole table of the two matrices the region was given. -/
theorem region_array (c : Dev nD) :
    (dats m 0 c).arrAt 2 cfg0.N = RowsProduct.flat (V m c main_v1) (V m c main_v2) :=
  (dats m 0 c).arrAt_eq_of_cover 2 (RowsProduct.flat (V m c main_v1) (V m c main_v2))
    (fun t _ => flushed_eq m c t) (covered)

end Cert.KernelIdeal.RegionArray

end
-- ==== Proof.WholeRun.lean ====
/-
  The idealized kernel's whole run. Around the region the host program does three things before it and one after:

    * the activations [4, 2048, 4096] are laid out as [8192, 4096] — row 2048·b + s of the matrix is row (b, s) of the
      array — and narrowed to a 16-bit format, which over the extended reals changes nothing;
    * the integer weights are converted to floats: each entry becomes the signed integer it denotes, exactly;
    * the region fills the [8192, 4096] output with the rows-by-rows table of those two matrices (`RegionArray`);
    * the output is laid out back as [4, 2048, 4096].

  Reading the last array at (b, s, o): it is entry (2048·b + s, o) of the table, that is
  Σ_k rows[2048·b + s, k] · weights[o, k] = Σ_k x[b, s, k] · (w[o, k] as a signed integer) — `RowsProduct.out` of the two
  argument arrays. The two layout changes are read through the row-major position of an index, which they preserve.
-/
import proofs.«179095_j43963285242662_2_alg».proof.Proof.Gen.KernelIdeal.Frame
import proofs.«179095_j43963285242662_2_alg».proof.Proof.RowsProduct
import proofs.«179095_j43963285242662_2_alg».proof.Proof.RegionArray
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.WholeRun

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The matrix of activation rows the region is given: the activations laid out as [8192, 4096], then narrowed. -/
theorem rows_entry (c : Dev nD) : @Eq (S8192x4096.Idx → EReal) (V m c main_v1)
    (truncf (F := Ideal) .bf16 (shapeCast S8192x4096 (m ((c : Thread nD τ).loc main_arg0)) shapeCasts_S4x2048x4096_S8192x4096) bitsLt_bf16_f32) := by
  show StableHlo.after hostOps0 (fun b => m (c, b)) (Proc.devRef .tc main_v1) = _
  after_results
  rfl

/-- The matrix of weight rows the region is given: the integer weights converted to floats. -/
theorem weights_entry (c : Dev nD) : @Eq (S4096x4096.Idx → EReal) (V m c main_v2)
    (sitofp (F := Ideal) .bf16 (m ((c : Thread nD τ).loc main_arg1))) := by
  show StableHlo.after hostOps0 (fun b => m (c, b)) (Proc.devRef .tc main_v2) = _
  after_results

/-- Row r = 2048·b + s of the activation matrix, at column k, is x[b, s, k]: the two indices have the same row-major
    position, and narrowing is the identity on extended reals. -/
theorem rows_entry_apply (c : Dev nD) (b : Fin 4) (s : Fin 2048) (k : Fin 4096) (r : Fin 8192) (hr : r.val = b.val * 2048 + s.val) :
    @Eq EReal (V m c main_v1 (ix2 r k)) (m ((c : Thread nD τ).loc main_arg0) (ix3 b s k)) := by
  refine (congrFun (rows_entry m c) (ix2 r k)).trans ?_
  show shapeCast S8192x4096 (m ((c : Thread nD τ).loc main_arg0)) shapeCasts_S4x2048x4096_S8192x4096 (ix2 r k) = _
  exact shapeCast_apply _ _ (ix2 r k) (ix3 b s k) (by
    rw [Shape.rowMajor_val_three, Shape.rowMajor_val_two]
    show (b.val * 2048 + s.val) * 4096 + k.val = r.val * 4096 + k.val
    rw [hr])

/-- An entry of the weight matrix is the signed integer the argument holds there. -/
theorem weights_entry_apply (c : Dev nD) (i : S4096x4096.Idx) :
    @Eq EReal (V m c main_v2 i) (((m ((c : Thread nD τ).loc main_arg1) i).toInt : ℝ) : EReal) :=
  congrFun (weights_entry m c) i

/-- Entry (2048·b + s, o) of the table of the two matrices the region is given is out[b, s, o] of the two arguments. -/
theorem table_entry (c : Dev nD) (b : Fin 4) (s : Fin 2048) (o : Fin 4096) (r : Fin 8192) (hr : r.val = b.val * 2048 + s.val) :
    @Eq EReal (RowsProduct.flat (V m c main_v1) (V m c main_v2) (ix2 r o))
      (RowsProduct.out (m ((c : Thread nD τ).loc main_arg0)) (m ((c : Thread nD τ).loc main_arg1)) (ix3 b s o)) := by
  unfold RowsProduct.flat RowsProduct.out
  refine Finset.sum_congr rfl fun k _ => ?_
  refine congrArg₂ (fun a b : EReal => a * b) ?_ ?_
  · exact rows_entry_apply m c b s k r hr
  · exact weights_entry_apply m c (ix2 o k)

/-- The program's result array after the run: out[b, s, o] = Σ_k x[b, s, k] · w[o, k]. -/
theorem result_eq (c : Dev nD) :
    @Eq (S4x2048x4096.Idx → EReal) (Pipeline.afterTail₀ cfgs (dats m) 0 (V0 m) [hostOps1] c main_v4)
      (RowsProduct.out (m ((c : Thread nD τ).loc main_arg0)) (m ((c : Thread nD τ).loc main_arg1))) := by
  unfold Pipeline.afterTail₀
  show StableHlo.after hostOps1 _ (Proc.devRef .tc main_v4) = _
  after_results
  have hw : @Eq (S8192x4096.Idx → EReal)
      (Pipeline.withArrays (cfgs 0).spec c (V0 m c) (fun w => (dats m 0 c).arrAt w (cfgs 0).N) (Proc.devRef .tc main_v3))
      (RowsProduct.flat (V m c main_v1) (V m c main_v2)) :=
    (Pipeline.withArrays_arr spec0 launch0.win.arr_inj c _ _ 2).trans (RegionArray.region_array m c)
  funext i
  obtain ⟨b, s, o, rfl⟩ : ∃ (b : Fin 4) (s : Fin 2048) (o : Fin 4096), i = ix3 b s o := ⟨i 0, i 1, i 2, eq_ix3 i⟩
  show shapeCast S4x2048x4096
      (Pipeline.withArrays (cfgs 0).spec c (V0 m c) (fun w => (dats m 0 c).arrAt w (cfgs 0).N) (Proc.devRef .tc main_v3))
      shapeCasts_S8192x4096_S4x2048x4096 (ix3 b s o) = _
  have hb : b.val < 4 := b.isLt
  have hs : s.val < 2048 := s.isLt
  refine (shapeCast_apply _ _ (ix3 b s o) (ix2 (⟨b.val * 2048 + s.val, by omega⟩ : Fin 8192) o) (by
    rw [Shape.rowMajor_val_three, Shape.rowMajor_val_two]
    show (b.val * 2048 + s.val) * 4096 + o.val = (b.val * 2048 + s.val) * 4096 + o.val
    rfl)).trans ((congrFun hw _).trans (table_entry m c b s o ⟨b.val * 2048 + s.val, by omega⟩ rfl))

/-- The idealized kernel's run, read: every weakly fair execution terminates with the result array at
    `RowsProduct.out` of the two argument arrays, and the arguments unchanged. -/
theorem run : θ_run defs (onTc (τ := τ) (main (F := Ideal))) ⟨m, fun _ => 0, ρ⟩ fun r => ∀ c : Dev nD,
      r.2.mem ((c : Thread nD τ).loc main_v4)
        = RowsProduct.out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.WholeRun

end
-- ==== Proof.ReferenceValue.lean ====
/-
  The reference computes the same table. It converts the integer weights to floats — each entry the signed integer it
  denotes — and contracts the last axis of the activations [4, 2048, 4096] with the last axis of the weights [4096, 4096]:
  at (b, s, o) the host's contraction is Σ_k x[b, s, k] · w[o, k] over the extended reals. The generated stage lemmas
  read it so, with the operands' indices given coordinate by coordinate; those are (b, s, k) and (o, k), and the term is
  `RowsProduct.out` of the two argument arrays.
-/
import proofs.«179095_j43963285242662_2_alg».proof.Proof.Gen.ReferenceIdeal.Read
import proofs.«179095_j43963285242662_2_alg».proof.Proof.RowsProduct

noncomputable section

open scoped BigOperators

namespace Cert.ReferenceIdeal.RefValue

open Cert.ReferenceIdeal Cert.ReferenceIdeal.Gen Cert.ReferenceIdeal.Read Idealize.ShloMosaic Idealize.ShloMosaic.ValueIdx

/-- The activations are read at (b, s, k). -/
theorem left_index (i : S4x2048x4096.Idx) (k : Fin 4096) :
    lidx_main_v1 i k = ix3 (i 0 : Fin 4) (i 1 : Fin 2048) k :=
  funext fun a => by
    match a with
    | ⟨0, _⟩ => rfl
    | ⟨1, _⟩ => rfl
    | ⟨2, _⟩ => rfl

/-- The weights are read at (o, k). -/
theorem right_index (i : S4x2048x4096.Idx) (k : Fin 4096) :
    ridx_main_v1 i k = ix2 (i 2 : Fin 4096) k :=
  funext fun a => by
    match a with
    | ⟨0, _⟩ => rfl
    | ⟨1, _⟩ => rfl

/-- The reference's result term is `RowsProduct.out` of its two arguments. -/
theorem reference_eq (x : (⟨S4x2048x4096, .f32⟩ : BufTy).Contents (Elt Ideal)) (w : (⟨S4096x4096, .i32⟩ : BufTy).Contents (Elt Ideal)) :
    @Eq (S4x2048x4096.Idx → EReal) (val_main_v1 (F := Ideal) x w) (RowsProduct.out x w) := by
  funext i
  rw [val_main_v1_apply]
  unfold RowsProduct.out
  refine Finset.sum_congr rfl fun k _ => ?_
  rw [val_main_v0_apply, left_index, right_index]
  rfl

end Cert.ReferenceIdeal.RefValue

end
-- ==== Proof.lean ====
/-
  A linear layer with integer weights, tiled, against one contraction.

  The kernel lays the activations x [4, 2048, 4096] out as 8192 rows, narrows them to a 16-bit float format, converts
  the integer weights w [4096, 4096] to that format, and fills the [8192, 4096] output in 8 × 8 blocks of [1024, 512],
  each block the product of 1024 activation rows with 512 weight rows contracted along their common last axis; the
  output is then laid out back as [4, 2048, 4096]. The reference converts the weights to 32-bit floats and contracts
  the last axes of x and w in one operation.

  Over the extended reals a change of float format is the identity and an integer converts to the real number it
  denotes, whatever the target format; so both programs end with

      out[b, s, o] = Σ_{k < 4096} x[b, s, k] · w[o, k]

  (`RowsProduct.out`), the two sums over the same index in the same order: no law of arithmetic is needed beyond
  naming the indices, and in particular nothing about finiteness of x. The kernel's side is read off its run block by
  block (`BlockProduct`, `RegionArray`, `WholeRun`), the reference's off its run operation by operation
  (`ReferenceValue`). The idealization rewrote nothing, so the kernel and its idealized form are one text.
-/
import proofs.«179095_j43963285242662_2_alg».proof.Defs
import proofs.«179095_j43963285242662_2_alg».proof.Proof.Gen.Kernel
import proofs.«179095_j43963285242662_2_alg».proof.Proof.Gen.Kernel.Skeleton
import proofs.«179095_j43963285242662_2_alg».proof.Proof.Gen.Kernel.Launch
import proofs.«179095_j43963285242662_2_alg».proof.Proof.Gen.Kernel.Points
import proofs.«179095_j43963285242662_2_alg».proof.Proof.Gen.Kernel.Frame
import proofs.«179095_j43963285242662_2_alg».proof.Proof.Gen.KernelIdeal
import proofs.«179095_j43963285242662_2_alg».proof.Proof.Gen.KernelIdeal.Skeleton
import proofs.«179095_j43963285242662_2_alg».proof.Proof.Gen.KernelIdeal.Launch
import proofs.«179095_j43963285242662_2_alg».proof.Proof.Gen.KernelIdeal.Points
import proofs.«179095_j43963285242662_2_alg».proof.Proof.Gen.KernelIdeal.Frame
import proofs.«179095_j43963285242662_2_alg».proof.Proof.Gen.ReferenceIdeal
import proofs.«179095_j43963285242662_2_alg».proof.Proof.Gen.ReferenceIdeal.Run
import proofs.«179095_j43963285242662_2_alg».proof.Proof.Gen.ReferenceIdeal.Read
import proofs.«179095_j43963285242662_2_alg».proof.Proof.Gen.Pre_finite_inputs
import proofs.«179095_j43963285242662_2_alg».proof.Proof.RowsProduct
import proofs.«179095_j43963285242662_2_alg».proof.Proof.WholeRun
import proofs.«179095_j43963285242662_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealized form. -/
theorem frame_kernel_ideal : Cert.frame_KernelIdeal := fun m ρ _ => Cert.KernelIdeal.Gen.frame m ρ

/-- The reference runs and leaves its arguments alone: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on x and w, both idealized programs end with out[b, s, o] = Σ_k x[b, s, k] · w[o, k]. -/
theorem algebraic : Cert.algebraic_KernelIdeal_ReferenceIdeal := by
  intro m ρ m' ρ' _ hagree
  refine ⟨fun c => Cert.RowsProduct.out
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v1_eq _ _).trans (Cert.ReferenceIdeal.RefValue.reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
